-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel

variable [Facts]

def fn {F : FTy → Type} [FloatOps F] (main_arg0 : FVec F S32x2048x1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  main_v3
-- ==== Kernel.lean ====
abbrev S32x2048x1024 : Shape := ⟨3, ![32, 2048, 1024]⟩
abbrev S65536x1024 : Shape := ⟨2, ![65536, 1024]⟩
abbrev S2048x1024 : Shape := ⟨2, ![2048, 1024]⟩

abbrev nBuf : Space → Nat
  | .hbm => 4
  | .vmem => 4
  | .smem => 0
  | _ => 0

abbrev bufTy : (tb : Table) → Fin (tcTables nBuf tb) → BufTy
  | .hbm, ⟨0, _⟩ => ⟨S32x2048x1024, .f32⟩
  | .hbm, ⟨1, _⟩ => ⟨S65536x1024, .f32⟩
  | .hbm, ⟨2, _⟩ => ⟨S65536x1024, .f32⟩
  | .hbm, ⟨3, _⟩ => ⟨S32x2048x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x2048x1024_S65536x1024 : S32x2048x1024.ShapeCasts S65536x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S65536x1024_S32x2048x1024 : S65536x1024.ShapeCasts S32x2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S65536x1024.size a
  hwx0_1 : ∀ i : grid0.Coords, EltTy.bits .f32 = 32 ∨ (Rect.block (s := S65536x1024) S2048x1024.size (cc0_transform_1 i) (hinb0_1 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x2048x1024 : Shape := ⟨3, ![32, 2048, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S_, .f32⟩
  | .hbm, ⟨2, _⟩ => ⟨S32x2048x1024, .f32⟩
  | .hbm, ⟨3, _⟩ => ⟨S32x2048x1024, .f32⟩
  | .hbm, ⟨4, _⟩ => ⟨S_, .f32⟩
  | .hbm, ⟨5, _⟩ => ⟨S32x2048x1024, .f32⟩
  | .hbm, ⟨6, _⟩ => ⟨S32x2048x1024, .f32⟩
  | .hbm, ⟨7, _⟩ => ⟨S_, .f32⟩
  | .hbm, ⟨8, _⟩ => ⟨S32x2048x1024, .f32⟩
  | .hbm, ⟨9, _⟩ => ⟨S32x2048x1024, .f32⟩
  | .hbm, ⟨10, _⟩ => ⟨S_, .f32⟩
  | .hbm, ⟨11, _⟩ => ⟨S32x2048x1024, .f32⟩
  | .hbm, ⟨12, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S32x2048x1024 : S_.BroadcastsInDim S32x2048x1024 (![] : Fin 0 → Fin S32x2048x1024.rank)

variable [Facts₀]

class Facts : Prop extends Facts₀ where

variable [Facts]
-- ==== Proof.AffineLaw.lean ====
/-
  The scalar mathematics of this certificate, on the extended reals.

  Entry by entry the kernel computes  max (x · 3 + 2) 0  and the reference computes  max ((x + 2) · 3 − 4) 0.
  At the exact instance a float is an extended real and +, ·, −, max are the exact operations, so the two agree as
  soon as  (x + 2) · 3 − 4 = x · 3 + 2.  For a real x this is distributivity and 6 − 4 = 2.  It also holds at the two
  infinities, because the factor 3 is positive: −∞ + 2 = −∞, −∞ · 3 = −∞, −∞ − 4 = −∞, and likewise with +∞.  So the
  law is proved for EVERY extended real, by the three cases, and no finiteness of the input is used.

  The three float words involved are exact small integers: 0x40000000 is 2, 0x40400000 is 3, 0x40800000 is 4.  The
  zero word that both programs take the maximum with is the same word on both sides and is never evaluated.
-/
import Idealize.ShloMosaic.PureOps.Ideal

noncomputable section

namespace Cert.AffineRelu

open Idealize.ShloMosaic

/-- The word `0x40000000` (sign 0, exponent 128, mantissa 0) denotes the real number 2. -/
theorem word_two : Ideal.ofBits .f32 0x40000000#32 = ((2 : ℝ) : EReal) := by
  simp [Ideal.ofBits, Ideal.ieee, -EReal.coe_mul]; norm_num

/-- The word `0x40400000` (exponent 128, mantissa one half) denotes the real number 3. -/
theorem word_three : Ideal.ofBits .f32 0x40400000#32 = ((3 : ℝ) : EReal) := by
  simp [Ideal.ofBits, Ideal.ieee, -EReal.coe_mul]; norm_num

/-- The word `0x40800000` (exponent 129, mantissa 0) denotes the real number 4. -/
theorem word_four : Ideal.ofBits .f32 0x40800000#32 = ((4 : ℝ) : EReal) := by
  simp [Ideal.ofBits, Ideal.ieee, -EReal.coe_mul]; norm_num

/-- `(x + 2) · 3 − 4 = x · 3 + 2` for every extended real `x`: distributivity on the reals, and at either infinity
    both sides are that infinity because 3 > 0. -/
theorem affine_fold (x : EReal) :
    (x + ((2 : ℝ) : EReal)) * ((3 : ℝ) : EReal) - ((4 : ℝ) : EReal) = x * ((3 : ℝ) : EReal) + ((2 : ℝ) : EReal) := by
  induction x using EReal.rec with
  | bot =>
    rw [EReal.bot_add, EReal.bot_mul_coe_of_pos (by norm_num : (0 : ℝ) < 3), EReal.bot_sub, EReal.bot_add]
  | coe r =>
    rw [← EReal.coe_add, ← EReal.coe_mul, ← EReal.coe_sub, ← EReal.coe_mul, ← EReal.coe_add]
    congr 1; ring
  | top =>
    rw [EReal.top_add_coe, EReal.top_mul_coe_of_pos (by norm_num : (0 : ℝ) < 3), EReal.top_sub_coe, EReal.top_add_coe]

/-- One entry of the result as the kernel spells it: `max (x · 3 + 2) 0`, over the programs' own float words. -/
def reluAffine (x : EReal) : EReal :=
  max (x * Ideal.ofBits .f32 0x40400000#32 + Ideal.ofBits .f32 0x40000000#32) (Ideal.ofBits .f32 0x00000000#32)

/-- One entry of the result as the reference spells it, `max ((x + 2) · 3 − 4) 0`, is the same extended real. -/
theorem reference_entry (x : EReal) :
    max ((x + Ideal.ofBits .f32 0x40000000#32) * Ideal.ofBits .f32 0x40400000#32 - Ideal.ofBits .f32 0x40800000#32)
        (Ideal.ofBits .f32 0x00000000#32) = reluAffine x := by
  unfold reluAffine
  rw [word_two, word_three, word_four, affine_fold]

/-- THE RESULT, as one function of the argument array: entry `i` of the f32[32, 2048, 1024] result is
    `max (x i · 3 + 2) 0`.  Both programs are proved to end with this array. -/
def result (x : (⟨3, ![32, 2048, 1024]⟩ : Shape).Idx → EReal) : (⟨3, ![32, 2048, 1024]⟩ : Shape).Idx → EReal :=
  fun i => reluAffine (x i)

theorem result_apply (x : (⟨3, ![32, 2048, 1024]⟩ : Shape).Idx → EReal) (i : (⟨3, ![32, 2048, 1024]⟩ : Shape).Idx) :
    result x i = reluAffine (x i) := rfl

end Cert.AffineRelu

end
-- ==== Proof.ReferenceEntries.lean ====
/-
  The reference, entry by entry.

  The reference program is twelve host operations: three scalar constants 2, 3, 4 each broadcast to the whole
  f32[32, 2048, 1024] shape, the sum x + 2, the product (x + 2) · 3, the difference (x + 2) · 3 − 4, and the called
  relu, which is the maximum with a broadcast 0.  Every one of them is pointwise, and a broadcast of a scalar reads that
  scalar at every index; so entry `i` of the result is  max ((x i + 2) · 3 − 4) 0,  which the scalar law turns into
  the entry  max (x i · 3 + 2) 0  of `result x`.
-/
import proofs.«104494_j76166950027621_2_alg».proof.Proof.Gen.ReferenceIdeal.Read
import proofs.«104494_j76166950027621_2_alg».proof.Proof.AffineLaw

noncomputable section

namespace Cert.AffineRelu

open Idealize.ShloMosaic Cert.ReferenceIdeal Cert.ReferenceIdeal.Read

/-- The reference's last stage, as a whole array, is `result` of the argument array. -/
theorem reference_is_result (x : (⟨S32x2048x1024, .f32⟩ : BufTy).Contents (Elt Ideal)) :
    val_main_v6 (F := Ideal) x = result x := by
  funext i
  rw [val_main_v6_apply, val_main_v5_apply, val_main_v3_apply, val_main_v1_apply, val_main_v0_apply, val_main_cst_apply,
    val_main_v2_apply, val_main_cst_0_apply, val_main_v4_apply, val_main_cst_1_apply, val_main_call0_v0_apply,
    val_main_call0_cst_apply, result_apply]
  simp only [Ideal.maximumf_def, Ideal.subf_def, Ideal.mulf_def, Ideal.addf_def, Ideal.ofBits_def]
  exact reference_entry (x i)

end Cert.AffineRelu

end
-- ==== Proof.BlockPayload.lean ====
/-
  The kernel body's arithmetic, entry by entry.

  The body loads its whole 2048 × 1024 block, multiplies it by a broadcast 3, adds a broadcast 2, takes the maximum with
  a broadcast 0, and stores the whole block.  The one shape cast in it is from the block's shape to itself, the
  identity.  So entry `j` of what the body stores is  max (v j · 3 + 2) 0  of entry `j` of what it loaded.
-/
import proofs.«104494_j76166950027621_2_alg».proof.Proof.Gen.KernelIdeal.Skeleton
import proofs.«104494_j76166950027621_2_alg».proof.Proof.AffineLaw
import Idealize.ShloMosaic.Lib.Pipeline.Value
import Idealize.ShloMosaic.Lib.ValueIdx

noncomputable section

namespace Cert.AffineRelu

open Idealize.ShloMosaic Idealize.ShloMosaic.ValueIdx Cert.KernelIdeal Cert.KernelIdeal.Gen

/-- The stored block, at an entry, is `reluAffine` of the loaded block at that entry. -/
theorem payload_apply (v : Vec Ideal S2048x1024 .f32) (j : S2048x1024.Idx) :
    k0_pay1 (F := Ideal) v j = reluAffine (v j) := by
  unfold k0_pay1
  rw [shapeCast_self]
  rfl

/-- The stored block as a whole. -/
theorem payload_eq (v : Vec Ideal S2048x1024 .f32) :
    k0_pay1 (F := Ideal) v = fun j => reluAffine (v j) :=
  funext (payload_apply v)

end Cert.AffineRelu

end
-- ==== Proof.KernelRows.lean ====
/-
  The kernel's region, from blocks to the whole array.

  The region works on the argument flattened to 65536 rows of 1024 entries.  Its grid has 32 points; at point `t` the
  input window and the output window both stand on rows 2048·t … 2048·t + 2047 (all 1024 columns), the body turns the
  input block into `max (· · 3 + 2) 0` of it entry by entry, and the output block is written back.  Hence

    * what point `t` writes back is block `t` of ONE whole-array function: entry `i` of the rows array the region
      found, sent through `max (· · 3 + 2) 0`  (`written_block`);
    * every row `r` lies in the block of the point `r / 2048`, so the 32 blocks cover the array  (`blocks_cover`);
    * therefore the output rows array after the region is that function  (`rows_after`);
    * and the rows array the region found is the host's flattening of the argument  (`rows_entry`).
-/
import proofs.«104494_j76166950027621_2_alg».proof.Proof.Gen.KernelIdeal.Frame
import proofs.«104494_j76166950027621_2_alg».proof.Proof.BlockPayload
import Idealize.ShloMosaic.Lib.Pipeline.Value

noncomputable section

namespace Cert.AffineRelu

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The body's one rectangle starts at row 0, column 0. -/
theorem origin : (![0, 0] : Fin 2 → Nat) = fun _ => 0 := funext fun a => by fin_cases a <;> rfl

/-- The two windows' index maps, decided over the 32 grid points: both send point `t` to the same block, whose row
    block number is at most 31 and whose column block number is 0. -/
theorem same_block : ∀ t : Fin cfg0.N, win0_0.index t (0 : Fin 2) = win0_1.index t (0 : Fin 2)
    ∧ win0_0.index t (1 : Fin 2) = win0_1.index t (1 : Fin 2)
    ∧ win0_1.index t (0 : Fin 2) ≤ 31
    ∧ win0_1.index t (1 : Fin 2) = 0 :=
  (by decide +kernel : ∀ t : Fin grid0.N, _)

/-- Every one of the 32 row blocks is some point's. -/
theorem every_block : ∀ q : Fin 32, ∃ t : Fin cfg0.N, win0_1.index t = ![q.val, 0] :=
  (by decide +kernel : ∀ q : Fin 32, ∃ t : Fin grid0.N, win0_1.index t = ![q.val, 0])

/-- WHAT POINT `t` WRITES BACK is block `t` of the rows array the region found, sent entry by entry through
    `max (· · 3 + 2) 0`: the body's one store covers its buffer, its payload is pointwise, and the input block it read
    sits on the same rows and columns as the output block. -/
theorem written_block (c : Dev nD) (t : Fin cfg0.N) :
    (dats m 0 c).flushed 1 t
      = ((cfg0.win 1).blk t).view.read (Elt Ideal) (fun i => reluAffine (V m c main_v0 i)) := by
  show (cfg0.win 1).cut (grid0.coords t) ((dats m 0 c).after 1 t) = _
  rw [after0_1]
  unfold out0_1
  rw [View.canon_unit_zero origin]
  simp only [View.ld_unit_zero (S := S2048x1024) origin]
  rw [payload_eq]
  obtain ⟨e0, e1, -, -⟩ := same_block t
  funext j
  show reluAffine (V m c main_v0 (((cfg0.win 0).blk t).view.emb j)) = reluAffine (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 2048 + 1 * (j 0).val = win0_1.index t (0 : Fin 2) * 2048 + 1 * (j 0).val; omega
    | ⟨1, _⟩ => show win0_0.index t (1 : Fin 2) * 1024 + 1 * (j 1).val = win0_1.index t (1 : Fin 2) * 1024 + 1 * (j 1).val; omega
  rw [h0]

/-- An index of the rows array is in point `t`'s output block iff its row and its column are in the block's ranges. -/
theorem in_block (t : Fin cfg0.N) (i : S65536x1024.Idx) :
    i ∈ ((cfg0.win 1).blk t).view.set ↔ ∀ a : Fin 2, win0_1.index t a * S2048x1024.size a ≤ (i a).val ∧ (i a).val < win0_1.index t a * S2048x1024.size a + S2048x1024.size a := by
  show i ∈ ((View.whole main_v1).slice (win0_1.rect t)).set ↔ _
  rw [View.set_slice_whole, Rect.mem_set_unit]
  exact Iff.rfl

/-- THE BLOCKS COVER THE ARRAY: row `r` is in the block of the point whose row block number is `r / 2048`. -/
theorem blocks_cover (i : S65536x1024.Idx) :
    ∃ t : Fin cfg0.N, (cfg0.win 1).flush t = true ∧ i ∈ ((cfg0.win 1).blk t).view.set := by
  have hi0 : (i 0).val < 65536 := (i 0).isLt
  have hi1 : (i 1).val < 1024 := (i 1).isLt
  obtain ⟨t, ht⟩ := every_block ⟨(i 0).val / 2048, by omega⟩
  have q0 : win0_1.index t (0 : Fin 2) = (i 0).val / 2048 := congrFun ht 0
  have q1 : win0_1.index t (1 : Fin 2) = 0 := congrFun ht 1
  refine ⟨t, flush0_1 t, ?_⟩
  rw [in_block]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 1024 ≤ (i 1).val ∧ (i 1).val < win0_1.index t (1 : Fin 2) * 1024 + 1024; omega

/-- THE OUTPUT ROWS ARRAY AFTER THE REGION: entry `i` is `max (· · 3 + 2) 0` of entry `i` of the rows array the
    region found. -/
theorem rows_after (c : Dev nD) :
    (dats m 0 c).arrAt 1 cfg0.N = fun i => reluAffine (V m c main_v0 i) :=
  (dats m 0 c).arrAt_eq_of_cover 1 _ (fun t _ => written_block m c t) blocks_cover

/-- THE ROWS ARRAY THE REGION FOUND is the host's flattening of the argument: the one host operation before the region
    is the reshape of f32[32, 2048, 1024] to f32[65536, 1024]. -/
theorem rows_entry (c : Dev nD) :
    (V m c main_v0 : S65536x1024.Idx → EReal)
      = shapeCast S65536x1024 (m ((c : Thread nD τ).loc main_arg0)) Gen.shapeCasts_S32x2048x1024_S65536x1024 := by
  show StableHlo.after hostOps0 (fun b => m (c, b)) (Proc.devRef .tc main_v0) = _
  after_results
  rfl

end Cert.AffineRelu

end
-- ==== Proof.LibReshapePointwise.lean ====
/-
  A reshape moves no value: it reads its operand at the index with the same row-major position.  So a function applied
  entry by entry commutes with a reshape, and a reshape there and back is the identity.  Together: reshape, apply a
  function entry by entry, reshape back — that is the function applied entry by entry to the array one started from.
  Stated over arbitrary shapes and element types; it imports the library only.
-/
import Idealize.ShloMosaic.Lib.Pipeline.Value

namespace Cert.ReshapePointwise

open Idealize.ShloMosaic

/-- A function applied entry by entry commutes with a reshape. -/
theorem shapeCast_map {s t : Shape} {α β : Type} (f : α → β) (y : t.Idx → α) (h' : t.ShapeCasts s) :
    shapeCast s (fun j => f (y j)) h' = fun i => f (shapeCast s y h' i) := rfl

/-- Reshape to `t`, apply `f` entry by entry, reshape back to `s`: `f` applied entry by entry. -/
theorem reshape_pointwise_reshape {s t : Shape} {α β : Type} (f : α → β) (x : s.Idx → α)
    (h : s.ShapeCasts t) (h' : t.ShapeCasts s) :
    shapeCast s (fun j => f (shapeCast t x h j)) h' = fun i => f (x i) :=
  funext fun i => congrArg f (congrFun (shapeCast_shapeCast x h h') i)

end Cert.ReshapePointwise
-- ==== Proof.KernelResult.lean ====
/-
  The kernel's whole program: flatten, the region, unflatten.

  After the region the host reshapes the 65536 × 1024 output rows array back to f32[32, 2048, 1024].  A reshape moves
  no value: it reads its operand at the index with the same row-major position.  A pointwise function therefore
  commutes with it, and the flattening followed by the unflattening is the identity.  So the program's result is
  `max (x i · 3 + 2) 0` at every index `i` of the argument's own shape: the array `result x`.
-/
import proofs.«104494_j76166950027621_2_alg».proof.Proof.KernelRows
import proofs.«104494_j76166950027621_2_alg».proof.Proof.LibReshapePointwise

noncomputable section

namespace Cert.AffineRelu

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- THE RESULT BUFFER after the host line that follows the region: the unflattening of the output rows array, which is
    `result` of the argument. -/
theorem result_after (c : Dev nD) :
    Pipeline.afterTail₀ cfgs (dats m) 0 (V0 m) [hostOps1] c main_v2 = result (m ((c : Thread nD τ).loc main_arg0)) := by
  unfold Pipeline.afterTail₀
  show StableHlo.after hostOps1 _ (Proc.devRef .tc main_v2) = _
  after_results
  have rows : Pipeline.withArrays spec0 c (V0 m c) (fun w => (dats m 0 c).arrAt w cfg0.N) (Proc.devRef .tc main_v1)
      = fun i => reluAffine (V m c main_v0 i) :=
    (Pipeline.withArrays_arr spec0 launch0.win.arr_inj c _ _ 1).trans (rows_after m c)
  rw [rows, rows_entry]
  exact Cert.ReshapePointwise.reshape_pointwise_reshape reluAffine _ _ _

/-- THE KERNEL'S RUN: every weakly fair execution terminates with the result buffer at `result` of the argument and
    the argument unchanged.  The result buffer and the argument are neither of them an array of the region's windows
    (those are the two rows arrays), so the generated frame run states both as the lines after the region leave them. -/
theorem kernel_run : θ_run defs (onTc (τ := τ) (main (F := Ideal))) ⟨m, fun _ => 0, ρ⟩ fun r => ∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_after m c),
       ((h c).2 main_arg0 (Pipeline.mem_restRefs_of main_arg0 (by decide) (by decide))).trans (W_main_arg0 m (dats m) c)⟩)
    (run_main m ρ)

end Cert.AffineRelu

end
-- ==== Proof.lean ====
/-
  The kernel  max (x · 3 + 2) 0  against the reference  relu ((x + 2) · 3 − 4),  over f32[32, 2048, 1024].

  The kernel flattens the argument to 65536 rows of 1024 entries, runs one region over 32 blocks of 2048 rows — each
  block loaded whole, multiplied by 3, increased by 2, cut below at 0, stored whole — and unflattens the rows.  The
  reference adds 2, multiplies by 3, subtracts 4 and takes the maximum with 0, all on the whole array.

  At the exact instance a float is an extended real and every operation is the exact one, so entry by entry the two
  results are  max (x · 3 + 2) 0  and  max ((x + 2) · 3 − 4) 0.  These are equal for every extended real x:
  (x + 2) · 3 − 4 = x · 3 + 2  by distributivity on the reals, and at ±∞ both sides are that infinity because the
  factor 3 is positive (Proof/AffineLaw.lean).  The equality needs no hypothesis on the input, so the finiteness
  precondition is never opened.

  The parts:
    * Proof/AffineLaw.lean — the three float words are 2, 3, 4; the scalar law; the specification `result`.
    * Proof/ReferenceEntries.lean — the reference's twelve operations read at an index give `result`.
    * Proof/BlockPayload.lean — the body's stored block, at an entry, is `max (· · 3 + 2) 0` of the loaded entry.
    * Proof/KernelRows.lean — a point writes back a block of one whole-array function; the 32 blocks cover the rows
      array; hence the rows array after the region.
    * Proof/LibReshapePointwise.lean — reshape, a pointwise function, reshape back: the pointwise function.
    * Proof/KernelResult.lean — the reshape back, and the kernel's run ending at `result`.
  Here: the three frames (the two kernels' are the generated frame certificates, the reference's is its generated run
  with the result dropped), the idealization's ledger (empty), and the equality of the two results.
-/
import proofs.«104494_j76166950027621_2_alg».proof.Defs
import proofs.«104494_j76166950027621_2_alg».proof.Proof.Gen.Kernel
import proofs.«104494_j76166950027621_2_alg».proof.Proof.Gen.Kernel.Skeleton
import proofs.«104494_j76166950027621_2_alg».proof.Proof.Gen.Kernel.Launch
import proofs.«104494_j76166950027621_2_alg».proof.Proof.Gen.Kernel.Points
import proofs.«104494_j76166950027621_2_alg».proof.Proof.Gen.Kernel.Frame
import proofs.«104494_j76166950027621_2_alg».proof.Proof.Gen.KernelIdeal
import proofs.«104494_j76166950027621_2_alg».proof.Proof.Gen.KernelIdeal.Skeleton
import proofs.«104494_j76166950027621_2_alg».proof.Proof.Gen.KernelIdeal.Launch
import proofs.«104494_j76166950027621_2_alg».proof.Proof.Gen.KernelIdeal.Points
import proofs.«104494_j76166950027621_2_alg».proof.Proof.Gen.KernelIdeal.Frame
import proofs.«104494_j76166950027621_2_alg».proof.Proof.Gen.ReferenceIdeal
import proofs.«104494_j76166950027621_2_alg».proof.Proof.Gen.ReferenceIdeal.Run
import proofs.«104494_j76166950027621_2_alg».proof.Proof.Gen.ReferenceIdeal.Read
import proofs.«104494_j76166950027621_2_alg».proof.Proof.Gen.Pre_finite_inputs
import proofs.«104494_j76166950027621_2_alg».proof.Proof.ReferenceEntries
import proofs.«104494_j76166950027621_2_alg».proof.Proof.KernelResult
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel := fun m ρ _ => Cert.Kernel.Gen.frame m ρ

/-- So does the kernel read at the exact instance. -/
theorem frame_kernel_ideal : Cert.frame_KernelIdeal := fun m ρ _ => Cert.KernelIdeal.Gen.frame m ρ

/-- The reference is host operations only: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing: there is no ledger entry to restate. -/
theorem preserves : Cert.preserves_Kernel_KernelIdeal := trivial

/-- From memories that agree on the argument, the kernel ends with its result buffer at `result x` and the reference
    ends with its result buffer at its last stage, which read entry by entry is `result x` too. -/
theorem algebraic : Cert.algebraic_KernelIdeal_ReferenceIdeal := by
  intro m ρ m' ρ' _ hagree
  refine ⟨fun c => Cert.AffineRelu.result (m ((c.tc : Thread Cert.KernelIdeal.nD Cert.KernelIdeal.τ).loc Cert.KernelIdeal.main_arg0)),
    Cert.AffineRelu.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.AffineRelu.reference_is_result, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
